-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel

variable [Facts]

def fn {F : FTy → Type} [FloatOps F] (main_arg0 : FVec F S2048x50257 .f32) (main_arg1 : FVec F S2048x50257 .f32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_v4 : FVec F S2048x50257 .f32 := Host.absf main_arg1
  let main_cst_0 : FVec F S_ .f32 := constant S_ .f32 0x7F800000#32
  let main_v5 : FVec F S2048x50257 .f32 := broadcastInDim S2048x50257 ![] bcast_S_S2048x50257 main_cst_0
  let main_v6 : IVec S2048x50257 1 := cmpf .olt main_v4 main_v5
  let main_c_1 : IVec S_ 1 := constantI S_ 1 1#1
  let main_v7 : IVec S_ 1 := (fun x v => Host.reduce IntOp.andi x v reducesTo_S2048x50257_S_d0_1 h_S_) main_v6 main_c_1
  let main_v8 : IVec S_ 1 := andi main_v3 main_v7
  main_v8
-- ==== Kernel.lean ====
abbrev S2048x50257 : Shape := ⟨2, ![2048, 50257]⟩
abbrev S2048x1 : Shape := ⟨2, ![2048, 1]⟩
abbrev S16x50257 : Shape := ⟨2, ![16, 50257]⟩
abbrev S16x1 : Shape := ⟨2, ![16, 1]⟩
abbrev S16 : Shape := ⟨1, ![16]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S2048x50257, .f32⟩
  | .hbm, ⟨1, _⟩ => ⟨S2048x50257, .f32⟩
  | .hbm, ⟨2, _⟩ => ⟨S2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16x50257, .f32⟩
  | .local _ .vmem, ⟨1, _⟩ => ⟨S16x50257, .f32⟩
  | .local _ .vmem, ⟨2, _⟩ => ⟨S16x50257, .f32⟩
  | .local _ .vmem, ⟨3, _⟩ => ⟨S16x50257, .f32⟩
  | .local _ .vmem, ⟨4, _⟩ => ⟨S16x1, .f32⟩
  | .local _ .vmem, ⟨5, _⟩ => ⟨S16x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x50257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x50257_S16x50257_0_0 : ∀ a, (![0, 0] : Fin 2 → Nat) a + S16x50257.size a ≤ S16x50257.size a
  h_S16x50257 : 0 < S16x50257.numel
  reduces_S16x50257_S16 : S16x50257.Reduces [1] S16
  shapeCasts_S16_S16x1 : S16.ShapeCasts S16x1
  broadcasts_S16x1_S16x50257 : S16x1.Broadcasts S16x50257
  inb_S16x1_S16x1_0_0 : ∀ a, (![0, 0] : Fin 2 → Nat) a + S16x1.size a ≤ S16x1.size a
  h_S16x1 : 0 < S16x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x50257.size a ≤ S2048x50257.size a
  hwx0_0 : ∀ i : grid0.Coords, EltTy.bits .f32 = 32 ∨ (Rect.block (s := S2048x50257) S16x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x50257.size a ≤ S2048x50257.size a
  hwx0_1 : ∀ i : grid0.Coords, EltTy.bits .f32 = 32 ∨ (Rect.block (s := S2048x50257) S16x50257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S2048x1.size a
  hwx0_2 : ∀ i : grid0.Coords, EltTy.bits .f32 = 32 ∨ (Rect.block (s := S2048x1) S16x1.size (cc0_transform_2 i) (hinb0_2 i)).WholeWords (EltTy.packing .f32)

variable [Facts₀]

abbrev win0_0 : Pipeline.Window sig grid0 :=
  Pipeline.Window.ofSpec (Memref.whole main_arg0) S16x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x50257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x50257 : Shape := ⟨2, ![2048, 50257]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048x50257, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S2048x50257, .f32⟩
  | .hbm, ⟨9, _⟩ => ⟨S2048x50257, .f32⟩
  | .hbm, ⟨10, _⟩ => ⟨S2048x50257, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x50257, .f32⟩
  | .hbm, ⟨15, _⟩ => ⟨S2048x50257, .f32⟩
  | .hbm, ⟨16, _⟩ => ⟨S_, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048x1, .f32⟩
  | .hbm, ⟨22, _⟩ => ⟨S2048x50257, .f32⟩
  | .hbm, ⟨23, _⟩ => ⟨S2048x50257, .f32⟩
  | .hbm, ⟨24, _⟩ => ⟨S2048x50257, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S2048x1, .f32⟩
  | .hbm, ⟨29, _⟩ => ⟨S2048x50257, .f32⟩
  | .hbm, ⟨30, _⟩ => ⟨S2048x50257, .f32⟩
  | .hbm, ⟨31, _⟩ => ⟨S2048x50257, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  reducesTo_S2048x50257_S2048_d1 : S2048x50257.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x50257_0_1 : S2048x1.BroadcastsInDim S2048x50257 (![0, 1] : Fin 2 → Fin S2048x50257.rank)
  reducesTo_S2048x50257_S_d0_1 : S2048x50257.ReducesTo [0, 1] S_

variable [Facts₀]

class Facts : Prop extends Facts₀ where

variable [Facts]
-- ==== Proof.RowLoss.lean ====
/-
  The cross-entropy of one row, in two arrangements, and the law that joins them.

  For a row of logits x and a row of logits y over the same finite index set, write mx and my for their maxima,
  e_k = exp (x_k - mx), s_k = y_k - my, Zx = Σ e_k, Zy = Σ exp s_k. Then softmax(x)_k = e_k / Zx and
  log_softmax(y)_k = s_k - log Zy, and the row's inner product of the two is

      Σ_k (e_k / Zx) · (s_k - log Zy)  =  (Σ_k e_k · s_k) / Zx - log Zy,

  because Σ_k e_k / Zx = 1. The left side is what a program computes that forms both full arrays and then sums their
  product; the right side is what a program computes that keeps only three row sums. The law divides by Zx and cancels
  it, so it is a law of the REALS: it needs Zx to be a nonzero real and log Zy to be a real. On the extended reals it
  holds when every x_k and y_k is a real (then, the row not being empty, mx and my are reals, every e_k is a positive
  real, so Zx and Zy are positive reals); at an infinite entry it can fail. The shifts mx, my play no role in the law
  beyond being reals.
-/
import Idealize.ShloMosaic.PureOps.Ideal
import Idealize.ShloMosaic.PureOps.Ideal.Laws

noncomputable section

namespace Cert.RowLoss

open Idealize.ShloMosaic
open scoped BigOperators

/-! ## The words of the two infinities -/

/-- The f32 word of minus infinity is the bottom extended real. -/
theorem ofBits_negInf : Ideal.ofBits .f32 0xFF800000#32 = ⊥ := by simp [Ideal.ofBits, Ideal.ieee]
/-- The f32 word of plus infinity is the top extended real. -/
theorem ofBits_posInf : Ideal.ofBits .f32 0x7F800000#32 = ⊤ := by simp [Ideal.ofBits, Ideal.ieee]

variable {ι : Type} [Fintype ι]

/-! ## The two arrangements -/

/-- The maximum of a family, taken from minus infinity. -/
def vmax (f : ι → EReal) : EReal := (Finset.univ : Finset ι).fold max ⊥ f

/-- The row's loss from three row sums: (Σ e_k · s_k) / Σ e_k - log Σ exp s_k. -/
def lossOfRow (x y : ι → EReal) : EReal :=
  Ideal.div (∑ k, Ideal.exp (x k - vmax x) * (y k - vmax y)) (∑ k, Ideal.exp (x k - vmax x))
    - Ideal.log (∑ k, Ideal.exp (y k - vmax y))

/-- One entry of the product softmax(x) · log_softmax(y), each sum carrying the zero it starts from. -/
def prodEntry (x y : ι → EReal) (k : ι) : EReal :=
  Ideal.div (Ideal.exp (x k - vmax x)) (0 + ∑ k', Ideal.exp (x k' - vmax x))
    * ((y k - vmax y) - Ideal.log (0 + ∑ k', Ideal.exp (y k' - vmax y)))

/-! ## Real families -/

/-- The coercion of a finite sum of reals is the sum of the coercions. -/
theorem coe_sum (f : ι → ℝ) : ((∑ k, f k : ℝ) : EReal) = ∑ k, (f k : EReal) := by
  classical
  have h : ∀ s : Finset ι, ((∑ k ∈ s, f k : ℝ) : EReal) = ∑ k ∈ s, (f k : EReal) := fun s => by
    induction s using Finset.induction_on with
    | empty => simp
    | insert a s ha ih => rw [Finset.sum_insert ha, Finset.sum_insert ha, EReal.coe_add, ih]
  exact h Finset.univ

/-- A maximum taken from minus infinity over a finite set is minus infinity or one of the entries. -/
theorem fold_max_mem (f : ι → EReal) (s : Finset ι) : s.fold max ⊥ f = ⊥ ∨ ∃ k, s.fold max ⊥ f = f k := by
  classical
  induction s using Finset.induction_on with
  | empty => exact Or.inl rfl
  | insert a s ha ih =>
    rw [Finset.fold_insert ha]
    rcases ih with h | ⟨k, h⟩
    · exact Or.inr ⟨a, by rw [h, max_bot_right]⟩
    · rcases max_choice (f a) (s.fold max ⊥ f) with e | e
      · exact Or.inr ⟨a, e⟩
      · exact Or.inr ⟨k, e.trans h⟩

/-- The maximum of a family of reals that is not empty is a real. -/
theorem vmax_coe [Nonempty ι] (r : ι → ℝ) : ∃ m : ℝ, vmax (fun k => (r k : EReal)) = (m : EReal) := by
  rcases fold_max_mem (fun k => (r k : EReal)) Finset.univ with h | ⟨k, h⟩
  · exfalso
    obtain ⟨k₀⟩ := ‹Nonempty ι›
    have hle : ((r k₀ : ℝ) : EReal) ≤ (Finset.univ : Finset ι).fold max ⊥ (fun k => (r k : EReal)) :=
      (Finset.le_fold_max _).mpr (Or.inr ⟨k₀, Finset.mem_univ _, le_rfl⟩)
    rw [h] at hle
    exact EReal.coe_ne_bot _ (le_bot_iff.mp hle)
  · exact ⟨r k, h⟩

/-! ## The law -/

/-- The law over the reals: for weights e with a nonzero sum, values s and any number l,
    Σ (e_k / Σ e) · (s_k - l) = (Σ e_k · s_k) / Σ e - l. -/
theorem law_real (e s : ι → ℝ) (l : ℝ) (hZ : ∑ k, e k ≠ 0) :
    ∑ k, e k / (∑ k', e k') * (s k - l) = (∑ k, e k * s k) / (∑ k', e k') - l := by
  calc ∑ k, e k / (∑ k', e k') * (s k - l)
      = ∑ k, (e k * s k / (∑ k', e k') - e k * (l / ∑ k', e k')) := Finset.sum_congr rfl fun k _ => by ring
    _ = (∑ k, e k * s k) / (∑ k', e k') - (∑ k, e k) * (l / ∑ k', e k') := by
        rw [Finset.sum_sub_distrib, ← Finset.sum_div, ← Finset.sum_mul]
    _ = (∑ k, e k * s k) / (∑ k', e k') - l := by rw [mul_div_assoc', mul_div_cancel_left₀ l hZ]

/-- The law on the extended reals, for real rows x, y and real shifts mx, my: the sum over the row of the product's
    entries is the three-sums form. -/
theorem law_coe [Nonempty ι] (x y : ι → ℝ) (mx my : ℝ) :
    ∑ k, Ideal.div (Ideal.exp ((x k : EReal) - (mx : EReal))) (0 + ∑ k', Ideal.exp ((x k' : EReal) - (mx : EReal)))
        * (((y k : EReal) - (my : EReal)) - Ideal.log (0 + ∑ k', Ideal.exp ((y k' : EReal) - (my : EReal))))
      = Ideal.div (∑ k, Ideal.exp ((x k : EReal) - (mx : EReal)) * ((y k : EReal) - (my : EReal)))
            (∑ k, Ideal.exp ((x k : EReal) - (mx : EReal)))
          - Ideal.log (∑ k, Ideal.exp ((y k : EReal) - (my : EReal))) := by
  have hex : ∀ k, Ideal.exp ((x k : EReal) - (mx : EReal)) = ((Real.exp (x k - mx) : ℝ) : EReal) := fun k => by
    rw [← EReal.coe_sub]; rfl
  have hey : ∀ k, Ideal.exp ((y k : EReal) - (my : EReal)) = ((Real.exp (y k - my) : ℝ) : EReal) := fun k => by
    rw [← EReal.coe_sub]; rfl
  have hZx : 0 < ∑ k, Real.exp (x k - mx) := Finset.sum_pos (fun k _ => Real.exp_pos _) Finset.univ_nonempty
  have hZy : 0 < ∑ k, Real.exp (y k - my) := Finset.sum_pos (fun k _ => Real.exp_pos _) Finset.univ_nonempty
  have hlog : Ideal.log ((∑ k, Real.exp (y k - my) : ℝ) : EReal) = ((Real.log (∑ k, Real.exp (y k - my)) : ℝ) : EReal) := by
    rw [Ideal.log_coe, if_neg (not_le.mpr hZy)]
  have hdiv : ∀ a : ℝ, Ideal.div (a : EReal) ((∑ k, Real.exp (x k - mx) : ℝ) : EReal)
      = ((a / ∑ k, Real.exp (x k - mx) : ℝ) : EReal) := fun a => by
    rw [Ideal.div_coe hZx.ne', ← EReal.coe_mul, mul_one_div]
  simp only [hex, hey, zero_add]
  simp only [← coe_sum, hlog, hdiv, ← EReal.coe_sub, ← EReal.coe_mul]
  exact congrArg (fun r : ℝ => (r : EReal))
    (law_real (fun k => Real.exp (x k - mx)) (fun k => y k - my) (Real.log (∑ k, Real.exp (y k - my))) hZx.ne')

/-- The law for rows of extended reals that are all reals: the row's sum of the product's entries is the row's loss. -/
theorem sum_prodEntry [Nonempty ι] (x y : ι → EReal) (hx : ∀ k, ∃ r : ℝ, x k = (r : EReal)) (hy : ∀ k, ∃ r : ℝ, y k = (r : EReal)) :
    ∑ k, prodEntry x y k = lossOfRow x y := by
  choose xr hxr using hx
  choose yr hyr using hy
  obtain rfl : x = fun k => (xr k : EReal) := funext hxr
  obtain rfl : y = fun k => (yr k : EReal) := funext hyr
  obtain ⟨mx, hmx⟩ := vmax_coe xr
  obtain ⟨my, hmy⟩ := vmax_coe yr
  unfold prodEntry lossOfRow
  rw [hmx, hmy]
  exact law_coe xr yr mx my

end Cert.RowLoss

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.KernelRow.lean ====
/-
  What the kernel body stores, read at an index. The body loads a block of 16 rows of x and of y and stores a
  [16, 1] column; its entry at row p is the row loss of row p of the two blocks:
  (Σ_k exp (x_pk - max_p x) · (y_pk - max_p y)) / Σ_k exp (x_pk - max_p x) - log Σ_k exp (y_pk - max_p y).
  Each lane reduction is read as a sum or a maximum over the row; each row statistic reaches the lanes as a column
  broadcast back over them, and every lane of row p sees row p's statistic.
-/
import proofs.«157133_j14809047236868_2_alg».proof.Proof.Gen.KernelIdeal.Skeleton
import proofs.«157133_j14809047236868_2_alg».proof.Proof.RowLoss
import proofs.«157133_j14809047236868_2_alg».proof.Proof.LibColumns

noncomputable section

namespace Cert.KernelIdeal.Row

open Idealize.ShloMosaic Idealize.ShloMosaic.ValueIdx
open Cert.KernelIdeal Cert.KernelIdeal.Gen Cert.RowLoss Cert.Columns
open scoped BigOperators

/-- The exponential of a vector at an index is the exponential of the element. -/
theorem exp_apply {s : Shape} {φ : FTy} (v : FVec Ideal s φ) (i : s.Idx) : exp v i = Ideal.exp (v i) := rfl
/-- The logarithm of a vector at an index is the logarithm of the element. -/
theorem log_apply {s : Shape} {φ : FTy} (v : FVec Ideal s φ) (i : s.Idx) : log v i = Ideal.log (v i) := rfl

/-- A lane sum kept as a column, at (p, q): the sum over row p. -/
theorem colSum_apply (v : FVec Ideal S16x50257 .f32) (h : S16x50257.Reduces [1] S16) (hφ : FKind.Formats .f32)
    (hacc : (0x00000000#32 : BitVec 32) = 0x00000000#32) (hc : S16.ShapeCasts S16x1) (p : Fin 16) (q : Fin 1) :
    shapeCast S16x1 (multiReduction .add [1] S16 v 0x00000000#32 h hφ hacc) hc (ix2 p q)
      = ∑ k : Fin 50257, v (ix2 p k) :=
  (shapeCast_a_a1_apply _ hc p q).trans (laneSum_apply v _ h hφ hacc p)

/-- A lane maximum kept as a column and broadcast back over the lanes, at (p, k): the maximum of row p. -/
theorem colMax_apply (x : FVec Ideal S16x50257 .f32) (h : S16x50257.Reduces [1] S16) (hφ : FKind.Formats .f32)
    (hacc : (0xFF800000#32 : BitVec 32) = 0xFF800000#32) (hc : S16.ShapeCasts S16x1)
    (hb : S16x1.Broadcasts S16x50257) (p : Fin 16) (k : Fin 50257) :
    broadcastTo S16x50257 (shapeCast S16x1 (multiReduction .maximumf [1] S16 x 0xFF800000#32 h hφ hacc) hc) hb (ix2 p k)
      = vmax (fun k' : Fin 50257 => x (ix2 p k')) :=
  (broadcastTo_a1_ab_apply _ hb p k 0).trans ((shapeCast_a_a1_apply _ hc p 0).trans ((laneMax_apply x _ h hφ hacc p).trans (by
    rw [ofBits_negInf]; rfl)))

/-- A block minus its row maxima (broadcast back over the lanes), at (p, k): the entry minus the maximum of row p. -/
theorem shift_apply (x : FVec Ideal S16x50257 .f32) (h : S16x50257.Reduces [1] S16) (hφ : FKind.Formats .f32)
    (hacc : (0xFF800000#32 : BitVec 32) = 0xFF800000#32) (hc : S16.ShapeCasts S16x1)
    (hb : S16x1.Broadcasts S16x50257) (p : Fin 16) (k : Fin 50257) :
    subf x (broadcastTo S16x50257 (shapeCast S16x1 (multiReduction .maximumf [1] S16 x 0xFF800000#32 h hφ hacc) hc) hb) (ix2 p k)
      = x (ix2 p k) - vmax (fun k' : Fin 50257 => x (ix2 p k')) :=
  congrArg (fun z : EReal => x (ix2 p k) - z) (colMax_apply x h hφ hacc hc hb p k)

/-- THE STORED COLUMN at (p, q) is the row loss of row p of the two loaded blocks. -/
theorem pay_apply (x0 x1 : Vec Ideal S16x50257 .f32) (p : Fin 16) (q : Fin 1) :
    k0_pay1 (F := Ideal) x0 x1 (ix2 p q)
      = lossOfRow (fun k : Fin 50257 => x0 (ix2 p k)) (fun k : Fin 50257 => x1 (ix2 p k)) := by
  unfold k0_pay1 lossOfRow
  simp only [subf_apply, divf_apply, log_apply]
  refine congrArg₂ (fun a b : EReal => a - b) (congrArg₂ Ideal.div ?_ ?_) (congrArg Ideal.log ?_)
  · refine (colSum_apply _ _ _ _ _ p q).trans (Finset.sum_congr rfl fun k _ => ?_)
    exact congrArg₂ (fun a b : EReal => a * b) (congrArg Ideal.exp (shift_apply x0 _ _ _ _ _ p k)) (shift_apply x1 _ _ _ _ _ p k)
  · refine (colSum_apply _ _ _ _ _ p q).trans (Finset.sum_congr rfl fun k _ => ?_)
    exact congrArg Ideal.exp (shift_apply x0 _ _ _ _ _ p k)
  · refine (colSum_apply _ _ _ _ _ p q).trans (Finset.sum_congr rfl fun k _ => ?_)
    exact congrArg Ideal.exp (shift_apply x1 _ _ _ _ _ p k)

end Cert.KernelIdeal.Row

end
-- ==== Proof.LossSpec.lean ====
/-
  The loss as one function of the two logits arrays, and the two ways of summing it.

  X and Y are 2048 rows of 50257 logits. The loss is minus the sum over the rows of the row losses, divided by the
  number of rows; the sum starts from the program's zero word z and the divisor is the program's word n for 2048 —
  both programs carry the same two words, so neither is ever evaluated here.

  One program first writes the column of the 2048 row losses and sums that column: the sum over a [2048, 1] array
  is the sum over its rows. The other sums, over the whole [2048, 50257] array, the entries of
  softmax(X) · log_softmax(Y): a sum over a rank-2 index set is the sum over the rows of the sums along each row, and
  along each row the entries sum to the row loss (the law of the row, which needs the row's entries to be reals).
-/
import proofs.«157133_j14809047236868_2_alg».proof.Proof.RowLoss
import Idealize.ShloMosaic.Lib.ValueIdx
import Idealize.ShloMosaic.Lib.IdealHost

noncomputable section

namespace Cert.Loss

open Idealize.ShloMosaic Idealize.ShloMosaic.ValueIdx Cert.RowLoss
open scoped BigOperators

/-- An array of logits: 2048 rows of 50257 entries. -/
abbrev Logits : Type := (⟨2, ![2048, 50257]⟩ : Shape).Idx → EReal

/-- Row r of an array of logits. -/
def row (X : Logits) (r : Fin 2048) : Fin 50257 → EReal := fun k => X (ix2 r k)

/-- The column of the 2048 row losses. -/
def rowLosses (X Y : Logits) : (⟨2, ![2048, 1]⟩ : Shape).Idx → EReal :=
  fun i => lossOfRow (row X ⟨(i 0).val, idx2_lt0 i⟩) (row Y ⟨(i 0).val, idx2_lt0 i⟩)

/-- THE LOSS: minus the sum of the row losses (from the zero word), divided by the word of 2048. -/
def loss (X Y : Logits) : (⟨0, ![]⟩ : Shape).Idx → EReal :=
  fun _ => Ideal.div (-(Ideal.ofBits .f32 0x00000000#32 + ∑ r : Fin 2048, lossOfRow (row X r) (row Y r)))
    (Ideal.ofBits .f32 0x45000000#32)

/-- Every entry of the array is a real. -/
def AllReal (X : Logits) : Prop := ∀ i, ∃ r : ℝ, X i = (r : EReal)

/-- The column of row losses sums to the sum over the rows. -/
theorem sum_rowLosses (X Y : Logits) : ∑ i, rowLosses X Y i = ∑ r : Fin 2048, lossOfRow (row X r) (row Y r) := by
  rw [sum_idx2]
  refine Finset.sum_congr rfl fun r _ => ?_
  rw [Fin.sum_univ_one]
  rfl

/-- An array whose entry at (r, k) is entry k of softmax(row r of X) · log_softmax(row r of Y) sums, over all its
    entries, to the sum over the rows of the row losses — when X and Y hold reals. -/
theorem sum_product (X Y : Logits) (hX : AllReal X) (hY : AllReal Y) (P : Logits)
    (hP : ∀ (r : Fin 2048) (k : Fin 50257), P (ix2 r k) = prodEntry (row X r) (row Y r) k) :
    ∑ j, P j = ∑ r : Fin 2048, lossOfRow (row X r) (row Y r) := by
  haveI : Nonempty (Fin 50257) := ⟨⟨0, by decide⟩⟩
  rw [sum_idx2]
  refine Finset.sum_congr rfl fun r _ => ?_
  simp only [hP]
  exact sum_prodEntry (row X r) (row Y r) (fun k => hX _) (fun k => hY _)

/-- The tail both programs end with, read at the scalar's index: the host's sum over EVERY axis of an array A from
    the zero word, negated, divided by the word of 2048, is minus (zero word + Σ A), divided by that word. -/
theorem tail_apply {s : Shape} {axes : List (Fin s.rank)} (A : FVec Ideal s .f32) (h : s.ReducesTo axes ⟨0, ![]⟩)
    (hu : 0 < (⟨0, ![]⟩ : Shape).numel) (i : (⟨0, ![]⟩ : Shape).Idx) :
    Host.divf (Host.negf (Host.reduceAdd A (constant ⟨0, ![]⟩ .f32 0x00000000#32) h hu))
        (constant (F := Ideal) ⟨0, ![]⟩ .f32 0x45000000#32) i
      = Ideal.div (-(Ideal.ofBits .f32 0x00000000#32 + ∑ j, A j)) (Ideal.ofBits .f32 0x45000000#32) := by
  show Ideal.div (-(Host.reduceAdd A (constant ⟨0, ![]⟩ .f32 0x00000000#32) h hu i)) (Ideal.ofBits .f32 0x45000000#32) = _
  rw [hostReduceAdd_apply, Ideal.hostReduceAdd_total h (fun b => b.elim0)]
  rfl

end Cert.Loss

end
-- ==== Proof.KernelValue.lean ====
/-
  The kernel's result as a function of its two arguments.

  The grid has 128 points; point t loads rows 16t … 16t + 15 of x and of y (all 50257 lanes) and writes back rows
  16t … 16t + 15 of the [2048, 1] result column. So what point t writes back is block t of ONE column: the column of
  the 2048 row losses of (x, y). The 128 blocks cover the column (row r is in block r / 16), so after the run the
  column IS the row losses. The three host operations after the call sum the column from the zero word, negate, and
  divide by the word of 2048: the result is the loss.
-/
import proofs.«157133_j14809047236868_2_alg».proof.Proof.Gen.KernelIdeal.Frame
import proofs.«157133_j14809047236868_2_alg».proof.Proof.KernelRow
import proofs.«157133_j14809047236868_2_alg».proof.Proof.LossSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Losses

open Cert.KernelIdeal Cert.KernelIdeal.Gen Cert.KernelIdeal.Row Cert.RowLoss Cert.Loss
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: at point t every window is at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The first argument's block at point t is rows 16t … 16t + 15 of the argument. -/
theorem iblk0_apply (c : Dev nD) (t : Fin cfg0.N) (x : S16x50257.Idx) (k : S2048x50257.Idx)
    (hk0 : (k 0).val = 16 * t.val + (x 0).val) (hk1 : (k 1).val = (x 1).val) :
    (iblk m c 0 t : Vec Ideal S16x50257 .f32) x = (m ((c : Thread nD τ).loc main_arg0) : S2048x50257.Idx → Elt Ideal .f32) k := by
  obtain ⟨e0, e1, -, -, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 16 + 1 * (x 0).val = (k 0).val; rw [e0, hk0]; omega
  | ⟨1, _⟩ => show win0_0.index t (1 : Fin 2) * 50257 + 1 * (x 1).val = (k 1).val; rw [e1, hk1]; omega

/-- The second argument's block at point t likewise. -/
theorem iblk1_apply (c : Dev nD) (t : Fin cfg0.N) (x : S16x50257.Idx) (k : S2048x50257.Idx)
    (hk0 : (k 0).val = 16 * t.val + (x 0).val) (hk1 : (k 1).val = (x 1).val) :
    (iblk m c 1 t : Vec Ideal S16x50257 .f32) x = (m ((c : Thread nD τ).loc main_arg1) : S2048x50257.Idx → Elt Ideal .f32) k := by
  obtain ⟨-, -, e0, e1, -, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 16 + 1 * (x 0).val = (k 0).val; rw [e0, hk0]; omega
  | ⟨1, _⟩ => show win0_1.index t (1 : Fin 2) * 50257 + 1 * (x 1).val = (k 1).val; rw [e1, hk1]; omega

/-- One entry of what a point stores: for blocks x0, x1 that are rows 16T … 16T + 15 of X and Y, the stored column at y
    is the row-loss column of (X, Y) at any index i on row 16T + y₀. -/
theorem point_apply (X Y : Logits) (x0 x1 : Vec Ideal S16x50257 .f32) (T : Nat)
    (h0 : ∀ (p : Fin 16) (k : Fin 50257) (r : Fin 2048), r.val = 16 * T + p.val → x0 (ix2 p k) = X (ix2 r k))
    (h1 : ∀ (p : Fin 16) (k : Fin 50257) (r : Fin 2048), r.val = 16 * T + p.val → x1 (ix2 p k) = Y (ix2 r k))
    (y : S16x1.Idx) (i : S2048x1.Idx) (hi : (i 0).val = 16 * T + (y 0).val) :
    k0_pay1 (F := Ideal) x0 x1 y = rowLosses X Y i := by
  obtain ⟨p, q, rfl⟩ : ∃ (p : Fin 16) (q : Fin 1), y = ix2 p q := ⟨y 0, y 1, eq_ix2 y⟩
  rw [pay_apply]
  unfold rowLosses row
  congr 1
  · funext k; exact h0 p k _ hi
  · funext k; exact h1 p k _ hi

/-- WHAT POINT t WRITES BACK is block t of the row-loss column of the two arguments. -/
theorem flushed_eq (c : Dev nD) (t : Fin cfg0.N) :
    (dats m 0 c).flushed 2 t = ((cfg0.win 2).blk t).view.read (Elt Ideal)
      (rowLosses (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S16x50257) hz]
  obtain ⟨-, -, -, -, e4, e5⟩ := idx_facts t
  funext j
  rw [View.read_apply]
  refine point_apply _ _ _ _ t.val (fun p k r hr => ?_) (fun p k r hr => ?_) _ _ ?_
  · exact iblk0_apply m c t (ix2 p k) (ix2 r k) hr rfl
  · exact iblk1_apply m c t (ix2 p k) (ix2 r k) hr rfl
  · show win0_2.index t (0 : Fin 2) * 16 + 1 * (j 0).val = 16 * t.val + (j 0).val
    rw [e4]; omega

/-- An index of the column is in point t's block iff each coordinate is in the block's range on its axis. -/
theorem mem_blk (t : Fin cfg0.N) (i : S2048x1.Idx) :
    i ∈ ((cfg0.win 2).blk t).view.set ↔ ∀ a : Fin 2, win0_2.index t a * S16x1.size a ≤ (i a).val ∧ (i a).val < win0_2.index t a * S16x1.size a + S16x1.size a := by
  show i ∈ ((View.whole main_v0).slice (win0_2.rect t)).set ↔ _
  rw [View.set_slice_whole, Rect.mem_set_unit]
  exact Iff.rfl

/-- THE COVER: row r of the column is in the block of point r / 16, which is written back. -/
theorem cover (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  have hN : (i 0).val / 16 < cfg0.N := Nat.lt_of_lt_of_eq (by omega) N_0.symm
  refine ⟨⟨(i 0).val / 16, hN⟩, flush0_2 _, ?_⟩
  rw [mem_blk]
  obtain ⟨-, -, -, -, e4, e5⟩ := idx_facts ⟨(i 0).val / 16, hN⟩
  intro a
  match a with
  | ⟨0, _⟩ =>
    show win0_2.index ⟨(i 0).val / 16, hN⟩ (0 : Fin 2) * 16 ≤ (i 0).val ∧ (i 0).val < win0_2.index ⟨(i 0).val / 16, hN⟩ (0 : Fin 2) * 16 + 16
    rw [e4]; show (i 0).val / 16 * 16 ≤ (i 0).val ∧ (i 0).val < (i 0).val / 16 * 16 + 16; omega
  | ⟨1, _⟩ =>
    show win0_2.index ⟨(i 0).val / 16, hN⟩ (1 : Fin 2) * 1 ≤ (i 1).val ∧ (i 1).val < win0_2.index ⟨(i 0).val / 16, hN⟩ (1 : Fin 2) * 1 + 1
    rw [e5]; omega

/-- THE COLUMN after the run is the row losses of the two arguments. -/
theorem final (c : Dev nD) : (dats m 0 c).arrAt 2 cfg0.N
    = rowLosses (m ((c : Thread nD τ).loc main_arg0)) (m ((c : Thread nD τ).loc main_arg1)) :=
  (dats m 0 c).arrAt_eq_of_cover 2 _ (fun t _ => flushed_eq m c t) cover

/-! ## The lines after the call, and the run -/

/-- The column as the lines after the call find it: the array the call's window 2 wrote. -/
theorem arr_after (c : Dev nD) :
    Pipeline.withArrays (cfgs 0).spec c (V0 m c) (fun w => (dats m 0 c).arrAt w (cfgs 0).N) (Proc.devRef .tc main_v0)
      = rowLosses (m ((c : Thread nD τ).loc main_arg0)) (m ((c : Thread nD τ).loc main_arg1)) :=
  (Pipeline.withArrays_arr spec0 launch0.win.arr_inj c _ _ 2).trans (final m c)

/-- The result buffer is no array of the call and is not scoped: the lines after the call leave it as computed. -/
theorem v3_rest : main_v3 ∈ Pipeline.restRefs sig spec0 :=
  Pipeline.mem_restRefs_of main_v3 rfl (fun w => by fin_cases w <;> decide)

/-- THE RESULT: the column summed from the zero word, negated, divided by the word of 2048, is the loss. -/
theorem tail_eq (c : Dev nD) : Pipeline.afterTail₀ cfgs (dats m) 0 (V0 m) [hostOps1] c main_v3
    = loss (m ((c : Thread nD τ).loc main_arg0)) (m ((c : Thread nD τ).loc main_arg1)) := by
  unfold Pipeline.afterTail₀
  show StableHlo.after hostOps1 _ (Proc.devRef .tc main_v3) = _
  after_results
  rw [arr_after m c]
  funext i
  rw [tail_apply _ reducesTo_S2048x1_S_d0_1 h_S_ i]
  unfold loss
  rw [sum_rowLosses]

/-- THE RUN, read: every weakly fair execution terminates with the result at the loss of the two arguments, the
    arguments unchanged. -/
theorem run : θ_run defs (onTc (τ := τ) (main (F := Ideal))) ⟨m, fun _ => 0, ρ⟩ fun r => ∀ c : Dev nD,
      r.2.mem ((c.tc : Thread nD τ).loc main_v3)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 v3_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Losses

end
-- ==== Proof.RefValue.lean ====
/-
  The reference's result as the loss of its two arguments.

  The reference forms softmax(X) and log_softmax(Y) as full [2048, 50257] arrays, multiplies them entry by entry,
  sums every entry from the zero word, negates and divides by the word of 2048. Read at an index (r, k), operation by
  operation: the row maximum of X reaches every lane of row r (a maximum with minus infinity changes nothing),
  so the shifted entry is X_rk - max_r X, its exponential e_rk, the row's sum 0 + Σ_k e_rk, the softmax entry their
  quotient; for Y the same shifted entry s_rk, and the log-softmax entry s_rk - log (0 + Σ_k exp s_rk). The product's
  entry is therefore entry k of the row's product form, and by the law of the row the whole sum is the sum of the row
  losses — for arguments that hold reals.
-/
import proofs.«157133_j14809047236868_2_alg».proof.Proof.RefRead
import proofs.«157133_j14809047236868_2_alg».proof.Proof.LossSpec
import Idealize.ShloMosaic.Lib.ValueIdx
import Idealize.ShloMosaic.PureOps.Ideal.Laws
import Idealize.ShloMosaic.PureOps.Reduce

noncomputable section

namespace Cert.ReferenceIdeal.RefLoss

open Idealize.ShloMosaic Idealize.ShloMosaic.ValueIdx
open Cert.ReferenceIdeal Cert.ReferenceIdeal.Gen Cert.ReferenceIdeal.ReadP Cert.RowLoss Cert.Loss
open scoped BigOperators

/-- The index maps the broadcasts compose to: lane (r, k) reads the row statistic at r. -/
theorem idx_row (r : Fin 2048) (k : Fin 50257) : idx_main_v3 (idx_main_v4 (ix2 r k)) = ix1 r :=
  funext fun a => Fin.ext (by match a with | ⟨0, _⟩ => rfl)
/-- The same for the other composed broadcasts of the program (each is the same map, under its own name). -/
theorem idx_row_sumX (r : Fin 2048) (k : Fin 50257) : idx_main_v8 (idx_main_v9 (ix2 r k)) = ix1 r :=
  funext fun a => Fin.ext (by match a with | ⟨0, _⟩ => rfl)
theorem idx_row_maxY (r : Fin 2048) (k : Fin 50257) : idx_main_call0_v3 (idx_main_call0_v4 (ix2 r k)) = ix1 r :=
  funext fun a => Fin.ext (by match a with | ⟨0, _⟩ => rfl)
theorem idx_row_sumY (r : Fin 2048) (k : Fin 50257) : idx_main_call0_v8 (idx_main_call0_v10 (ix2 r k)) = ix1 r :=
  funext fun a => Fin.ext (by match a with | ⟨0, _⟩ => rfl)
theorem idx_lane_Y (r : Fin 2048) (k' : Fin 50257) : idx_main_call0_v7 (ix1 r) k' = ix2 r k' :=
  funext fun a => Fin.ext (by match a with | ⟨0, _⟩ => rfl | ⟨1, _⟩ => rfl)
/-- The index a row sum reads: coordinate k' inserted on the lane axis of row r. -/
theorem idx_lane (r : Fin 2048) (k' : Fin 50257) : idx_main_v7 (ix1 r) k' = ix2 r k' :=
  funext fun a => Fin.ext (by match a with | ⟨0, _⟩ => rfl | ⟨1, _⟩ => rfl)

/-- The host's reduction by maximum over the lanes, read at row r: the maximum over the row from the initial value. -/
theorem hostRowMax (X : FVec Ideal S2048x50257 .f32) (init : FVec Ideal S_ .f32) (hR : S2048x50257.Reduces [1] S2048)
    (r : Fin 2048) :
    Host.reduce (FloatOps.maximumf (F := Ideal) (φ := .f32)) X init reducesTo_S2048x50257_S2048_d1 h_S_ (ix1 r)
      = (Finset.univ : Finset (Fin 50257)).fold max (init (Shape.Idx.first h_S_)) (fun k => X (ix2 r k)) :=
  (Host.reduce_eq_fold_single (FloatOps.maximumf (F := Ideal) (φ := .f32)) X init reducesTo_S2048x50257_S2048_d1 hR h_S_
      (ix1 r)).trans
    (congrArg (fun f => (Finset.univ : Finset (Fin 50257)).fold max (init (Shape.Idx.first h_S_)) f)
      (funext fun k => congrArg X (funext fun a => Fin.ext (by match a with | ⟨0, _⟩ => rfl | ⟨1, _⟩ => rfl))))

/-! ## The first argument: softmax -/

/-- The host's maximum over the lanes of row r, from minus infinity: the row's maximum. -/
theorem rowmax0_X (X : Logits) (r : Fin 2048) : val_main_v0 (F := Ideal) X (ix1 r) = vmax (row X r) := by
  have hR : S2048x50257.Reduces [1] S2048 := by decide
  unfold val_main_v0
  rw [hostRowMax X (val_main_cst (F := Ideal)) hR r]
  show (Finset.univ : Finset (Fin 50257)).fold max (Ideal.ofBits .f32 0xFF800000#32) _ = _
  rw [ofBits_negInf]
  rfl

/-- A maximum with minus infinity changes nothing. -/
theorem rowmax_X (X : Logits) (r : Fin 2048) : val_main_v2 (F := Ideal) X (ix1 r) = vmax (row X r) := by
  rw [val_main_v2_apply, rowmax0_X]
  show max (Ideal.ofBits .f32 0xFF800000#32) _ = _
  rw [ofBits_negInf]
  exact max_eq_right bot_le

/-- The shifted entry. -/
theorem shift_X (X : Logits) (r : Fin 2048) (k : Fin 50257) :
    val_main_v5 (F := Ideal) X (ix2 r k) = X (ix2 r k) - vmax (row X r) := by
  rw [val_main_v5_apply, val_main_v4_apply, val_main_v3_apply, idx_row, rowmax_X]
  rfl

/-- Its exponential. -/
theorem exp_X (X : Logits) (r : Fin 2048) (k : Fin 50257) :
    val_main_v6 (F := Ideal) X (ix2 r k) = Ideal.exp (X (ix2 r k) - vmax (row X r)) := by
  rw [val_main_v6_apply, shift_X]
  rfl

/-- The row's sum of exponentials, from zero. -/
theorem sum_X (X : Logits) (r : Fin 2048) :
    val_main_v7 (F := Ideal) X (ix1 r) = 0 + ∑ k' : Fin 50257, Ideal.exp (X (ix2 r k') - vmax (row X r)) := by
  rw [val_main_v7_apply]
  show Ideal.ofBits .f32 0x00000000#32 + _ = _
  rw [Ideal.ofBits_zero_f32]
  simp only [idx_lane, exp_X]

/-- The softmax entry. -/
theorem softmax_X (X : Logits) (r : Fin 2048) (k : Fin 50257) :
    val_main_v10 (F := Ideal) X (ix2 r k)
      = Ideal.div (Ideal.exp (X (ix2 r k) - vmax (row X r))) (0 + ∑ k' : Fin 50257, Ideal.exp (X (ix2 r k') - vmax (row X r))) := by
  rw [val_main_v10_apply, exp_X, val_main_v9_apply, val_main_v8_apply, idx_row_sumX, sum_X]
  rfl

/-! ## The second argument: log-softmax (the called function's operations) -/

theorem rowmax0_Y (Y : Logits) (r : Fin 2048) : val_main_call0_v0 (F := Ideal) Y (ix1 r) = vmax (row Y r) := by
  have hR : S2048x50257.Reduces [1] S2048 := by decide
  unfold val_main_call0_v0
  rw [hostRowMax Y (val_main_call0_cst (F := Ideal)) hR r]
  show (Finset.univ : Finset (Fin 50257)).fold max (Ideal.ofBits .f32 0xFF800000#32) _ = _
  rw [ofBits_negInf]
  rfl

theorem rowmax_Y (Y : Logits) (r : Fin 2048) : val_main_call0_v2 (F := Ideal) Y (ix1 r) = vmax (row Y r) := by
  rw [val_main_call0_v2_apply, rowmax0_Y]
  show max (Ideal.ofBits .f32 0xFF800000#32) _ = _
  rw [ofBits_negInf]
  exact max_eq_right bot_le

/-- The shifted entry of the second argument. -/
theorem shift_Y (Y : Logits) (r : Fin 2048) (k : Fin 50257) :
    val_main_call0_v5 (F := Ideal) Y (ix2 r k) = Y (ix2 r k) - vmax (row Y r) := by
  rw [val_main_call0_v5_apply, val_main_call0_v4_apply, val_main_call0_v3_apply, idx_row_maxY, rowmax_Y]
  rfl

theorem exp_Y (Y : Logits) (r : Fin 2048) (k : Fin 50257) :
    val_main_call0_v6 (F := Ideal) Y (ix2 r k) = Ideal.exp (Y (ix2 r k) - vmax (row Y r)) := by
  rw [val_main_call0_v6_apply, shift_Y]
  rfl

theorem sum_Y (Y : Logits) (r : Fin 2048) :
    val_main_call0_v7 (F := Ideal) Y (ix1 r) = 0 + ∑ k' : Fin 50257, Ideal.exp (Y (ix2 r k') - vmax (row Y r)) := by
  rw [val_main_call0_v7_apply]
  show Ideal.ofBits .f32 0x00000000#32 + _ = _
  rw [Ideal.ofBits_zero_f32]
  simp only [idx_lane_Y, exp_Y]

/-- The log-softmax entry. -/
theorem logsoftmax_Y (Y : Logits) (r : Fin 2048) (k : Fin 50257) :
    val_main_v11 (F := Ideal) Y (ix2 r k)
      = (Y (ix2 r k) - vmax (row Y r)) - Ideal.log (0 + ∑ k' : Fin 50257, Ideal.exp (Y (ix2 r k') - vmax (row Y r))) := by
  rw [val_main_v11_apply, shift_Y, val_main_call0_v10_apply, val_main_call0_v9_apply, val_main_call0_v8_apply, idx_row_sumY,
    sum_Y, Ideal.subf_def, Ideal.hostUnary_log_def]

/-! ## The product and the loss -/

/-- The product's entry at (r, k) is entry k of the row's product form. -/
theorem prod_apply (X Y : Logits) (r : Fin 2048) (k : Fin 50257) :
    val_main_v12 (F := Ideal) X Y (ix2 r k) = prodEntry (row X r) (row Y r) k := by
  rw [val_main_v12_apply, softmax_X, logsoftmax_Y]
  rfl

/-- THE REFERENCE'S RESULT is the loss, for arguments that hold reals. -/
theorem result_eq (X Y : Logits) (hX : AllReal X) (hY : AllReal Y) : val_main_v15 (F := Ideal) X Y = loss X Y := by
  funext i
  unfold val_main_v15 val_main_v14 val_main_v13 val_main_cst_2 val_main_cst_3
  rw [tail_apply (val_main_v12 (F := Ideal) X Y) reducesTo_S2048x50257_S_d0_1 h_S_ i]
  unfold loss
  rw [sum_product X Y hX hY (val_main_v12 (F := Ideal) X Y) (prod_apply X Y)]

end Cert.ReferenceIdeal.RefLoss

end
-- ==== Proof.Finite.lean ====
/-
  The precondition gives real numbers. "Every float input is finite" is printed as: all of |X| < +inf, and all of
  |Y| < +inf, the two conjoined. At the ideal values an entry a with max a (-a) < +inf is neither infinity, so it is
  a real number. The law that joins the two programs divides by a row's sum and cancels it, which is sound only for
  reals: this is where the precondition is used.
-/
import proofs.«157133_j14809047236868_2_alg».proof.Pre_finite_inputs
import proofs.«157133_j14809047236868_2_alg».proof.Proof.Gen.Pre_finite_inputs
import proofs.«157133_j14809047236868_2_alg».proof.Proof.LossSpec
import Idealize.ShloMosaic.Lib.ReduceAll
import Idealize.ShloMosaic.Lib.Affine
import Idealize.ShloMosaic.Lib.Pipeline.Value

noncomputable section

namespace Cert.Loss

open Idealize.ShloMosaic Idealize.ShloMosaic.ValueIdx Cert.RowLoss

/-- An extended real whose absolute value is below plus infinity is a real. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

instance : Subsingleton (⟨0, ![]⟩ : Shape).Idx := ⟨fun a b => funext fun d => d.elim0⟩

/-- One "all of |X| < +inf" at an entry. -/
theorem real_of_all (X : Logits) (hb : Cert.Pre_finite_inputs.S_.BroadcastsInDim Cert.Pre_finite_inputs.S2048x50257 (![] : Fin 0 → Fin Cert.Pre_finite_inputs.S2048x50257.rank))
    (i : (⟨2, ![2048, 50257]⟩ : Shape).Idx)
    (h : cmpf (F := Ideal) .olt (Host.absf X) (broadcastInDim Cert.Pre_finite_inputs.S2048x50257 ![] hb (constant Cert.Pre_finite_inputs.S_ .f32 0x7F800000#32)) i = 1#1) :
    ∃ r : ℝ, X i = (r : EReal) := by
  apply real_of_abs_lt_top
  have hc : broadcastInDim Cert.Pre_finite_inputs.S2048x50257 ![] hb (constant (F := Ideal) Cert.Pre_finite_inputs.S_ .f32 0x7F800000#32) i
      = Ideal.ofBits .f32 0x7F800000#32 :=
    broadcastInDim_apply _ hb _ i ix0 (fun a => a.elim0)
  have h' : Ideal.cmp .olt (max (X i) (-(X i))) (broadcastInDim Cert.Pre_finite_inputs.S2048x50257 ![] hb (constant (F := Ideal) Cert.Pre_finite_inputs.S_ .f32 0x7F800000#32) i) = 1#1 := h
  rw [hc, ofBits_posInf] at h'
  by_contra hn
  simp [Ideal.cmp, hn] at h'

/-- THE PRECONDITION, read: both arguments hold reals. -/
theorem allReal_of_pre [Cert.Pre_finite_inputs.Facts] (X Y : Logits)
    (h : Cert.Pre_finite_inputs.fn (F := Ideal) X Y = fun _ => 1#1) : AllReal X ∧ AllReal Y := by
  have h0 := congrFun h ix0
  dsimp only [Cert.Pre_finite_inputs.fn] at h0
  obtain ⟨hA, hB⟩ := IntOp.andi_eq_one.mp h0
  exact ⟨fun i => real_of_all X _ i (Host.reduce_andi_all _ _ _ _ _ hA i),
    fun i => real_of_all Y _ i (Host.reduce_andi_all _ _ _ _ _ hB i)⟩

end Cert.Loss

end
-- ==== Proof.lean ====
/-
  A cross-entropy loss between two arrays of logits, computed two ways.

  Both programs compute, for X and Y of 2048 rows and 50257 columns,
      loss = -(Σ_r Σ_k softmax(X_r)_k · log_softmax(Y_r)_k) / 2048.
  The reference forms softmax(X) and log_softmax(Y) as whole arrays, multiplies them and sums every entry. The kernel
  never forms them: for each row it keeps the maxima mx, my and three sums,
      Zx = Σ_k exp (x_k - mx),   Zy = Σ_k exp (y_k - my),   S = Σ_k exp (x_k - mx) · (y_k - my),
  and writes the row's loss S / Zx - log Zy; the host then sums the 2048 row losses.
  The two agree because, along a row, Σ_k (e_k / Zx) · (s_k - log Zy) = S / Zx - log Zy: the weights e_k / Zx sum to one.
  That law cancels Zx, so it holds for reals; on the extended reals it is used only under the precondition that every
  input is finite, which makes every row's maximum, sums and logarithm real numbers (RowLoss.lean, Finite.lean).
  Everything else is bookkeeping of indices: each grid point's blocks are rows of the arguments and its write-back a
  block of the column of row losses (KernelValue.lean); each operation of the reference read at an index
  (RefValue.lean); a sum over a rank-2 index set as the sum over rows of the sums along rows (LossSpec.lean).
  The kernel is its own idealization (no operation was rewritten), so that conjunct is trivial; the three frames are the
  runs themselves with the result dropped.
-/
import proofs.«157133_j14809047236868_2_alg».proof.Defs
import proofs.«157133_j14809047236868_2_alg».proof.Proof.Gen.Kernel
import proofs.«157133_j14809047236868_2_alg».proof.Proof.Gen.Kernel.Skeleton
import proofs.«157133_j14809047236868_2_alg».proof.Proof.Gen.Kernel.Launch
import proofs.«157133_j14809047236868_2_alg».proof.Proof.Gen.Kernel.Points
import proofs.«157133_j14809047236868_2_alg».proof.Proof.Gen.Kernel.Frame
import proofs.«157133_j14809047236868_2_alg».proof.Proof.Gen.KernelIdeal
import proofs.«157133_j14809047236868_2_alg».proof.Proof.Gen.KernelIdeal.Skeleton
import proofs.«157133_j14809047236868_2_alg».proof.Proof.Gen.KernelIdeal.Launch
import proofs.«157133_j14809047236868_2_alg».proof.Proof.Gen.KernelIdeal.Points
import proofs.«157133_j14809047236868_2_alg».proof.Proof.Gen.KernelIdeal.Frame
import proofs.«157133_j14809047236868_2_alg».proof.Proof.Gen.ReferenceIdeal
import proofs.«157133_j14809047236868_2_alg».proof.Proof.Gen.Pre_finite_inputs
import proofs.«157133_j14809047236868_2_alg».proof.Proof.KernelValue
import proofs.«157133_j14809047236868_2_alg».proof.Proof.RefValue
import proofs.«157133_j14809047236868_2_alg».proof.Proof.Finite
import Idealize.ShloMosaic.Adequacy
import Idealize.ShloMosaic.Init

noncomputable section

namespace Cert.Proof

open Idealize.ShloMosaic Idealize.SL.Sem

/-- The kernel as printed runs, and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation of the kernel was rewritten for the ideal reading. -/
theorem preserves : Cert.preserves_Kernel_KernelIdeal := trivial

/-- Both programs end with the loss of the (agreeing, finite) arguments: the kernel by its run, the reference by its
    run read operation by operation and the law of the row. -/
theorem algebraic : Cert.algebraic_KernelIdeal_ReferenceIdeal := by
  intro m ρ m' ρ' hpre hagree
  refine ⟨fun c => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Losses.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq, (hagree c).1, (hagree c).2]
  obtain ⟨hX, hY⟩ := Cert.Loss.allReal_of_pre _ _ (hpre c)
  exact Cert.ReferenceIdeal.RefLoss.result_eq _ _ hX hY

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
